-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x8192x1024 .f32) (main_arg1 : FVec F S8192x1024 .f32) (main_arg2 : FVec F S1024 .f32) (main_arg3 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x8192x1024 : Shape := ⟨3, ![4, 8192, 1024]⟩
abbrev S8192x1024 : Shape := ⟨2, ![8192, 1024]⟩
abbrev S1024 : Shape := ⟨1, ![1024]⟩
abbrev S1x1024 : Shape := ⟨2, ![1, 1024]⟩
abbrev S4x512x1024 : Shape := ⟨3, ![4, 512, 1024]⟩
abbrev S512x1024 : Shape := ⟨2, ![512, 1024]⟩
abbrev S1x512x1024 : Shape := ⟨3, ![1, 512, 1024]⟩
abbrev S4x512 : Shape := ⟨2, ![4, 512]⟩
abbrev S4x512x1 : Shape := ⟨3, ![4, 512, 1]⟩
abbrev S1x1x1024 : Shape := ⟨3, ![1, 1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4x8192x1024, .f32⟩
  | .local _ .vmem, ⟨0, _⟩ => ⟨S4x512x1024, .f32⟩
  | .local _ .vmem, ⟨1, _⟩ => ⟨S4x512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S4x512x1024, .f32⟩
  | .local _ .vmem, ⟨7, _⟩ => ⟨S4x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024_S1x1024 : S1024.ShapeCasts S1x1024
  inb_S4x512x1024_S4x512x1024_0_0_0 : ∀ a, (![0, 0, 0] : Fin 3 → Nat) a + S4x512x1024.size a ≤ S4x512x1024.size a
  h_S4x512x1024 : 0 < S4x512x1024.numel
  inb_S512x1024_S512x1024_0_0 : ∀ a, (![0, 0] : Fin 2 → Nat) a + S512x1024.size a ≤ S512x1024.size a
  h_S512x1024 : 0 < S512x1024.numel
  shapeCasts_S512x1024_S1x512x1024 : S512x1024.ShapeCasts S1x512x1024
  broadcasts_S1x512x1024_S4x512x1024 : S1x512x1024.Broadcasts S4x512x1024
  reduces_S4x512x1024_S4x512 : S4x512x1024.Reduces [2] S4x512
  shapeCasts_S4x512_S4x512x1 : S4x512.ShapeCasts S4x512x1
  broadcasts_S4x512x1_S4x512x1024 : S4x512x1.Broadcasts S4x512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S1x1x1024_S4x512x1024 : S1x1x1024.Broadcasts S4x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S4x8192x1024.size a
  hwx0_0 : ∀ i : grid0.Coords, EltTy.bits .f32 = 32 ∨ (Rect.block (s := S4x8192x1024) S4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x1024.size a ≤ S4x8192x1024.size a
  hwx0_4 : ∀ i : grid0.Coords, EltTy.bits .f32 = 32 ∨ (Rect.block (s := S4x8192x1024) S4x512x1024.size (cc0_transform_4 i) (hinb0_4 i)).WholeWords (EltTy.packing .f32)

variable [Facts₀]

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S1024 : Shape := ⟨1, ![1024]⟩
abbrev S8192 : Shape := ⟨1, ![8192]⟩
abbrev S1x8192 : Shape := ⟨2, ![1, 8192]⟩
abbrev S1x1x1x8192 : Shape := ⟨4, ![1, 1, 1, 8192]⟩
abbrev S4x1x1x8192 : Shape := ⟨4, ![4, 1, 1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S8192, .i32⟩
  | .hbm, ⟨5, _⟩ => ⟨S1x8192, .i32⟩
  | .hbm, ⟨6, _⟩ => ⟨S1x1x1x8192, .i32⟩
  | .hbm, ⟨7, _⟩ => ⟨S4x1x1x8192, .i32⟩
  | .hbm, ⟨8, _⟩ => ⟨S4x8192, .i32⟩
  | .hbm, ⟨9, _⟩ => ⟨S_, .i32⟩
  | .hbm, ⟨10, _⟩ => ⟨S4x8192, .i32⟩
  | .hbm, ⟨11, _⟩ => ⟨S4x8192, .i1⟩
  | .hbm, ⟨12, _⟩ => ⟨S_, .i32⟩
  | .hbm, ⟨13, _⟩ => ⟨S4x8192, .i32⟩
  | .hbm, ⟨14, _⟩ => ⟨S4x8192, .i32⟩
  | .hbm, ⟨15, _⟩ => ⟨S4x8192, .i32⟩
  | .hbm, ⟨16, _⟩ => ⟨S4x8192x1, .i32⟩
  | .hbm, ⟨17, _⟩ => ⟨S1, .i32⟩
  | .hbm, ⟨18, _⟩ => ⟨S_, .i32⟩
  | .hbm, ⟨19, _⟩ => ⟨S4x8192x1, .i32⟩
  | .hbm, ⟨20, _⟩ => ⟨S4x8192x1, .i1⟩
  | .hbm, ⟨21, _⟩ => ⟨S1x1x1, .i32⟩
  | .hbm, ⟨22, _⟩ => ⟨S4x8192x1, .i32⟩
  | .hbm, ⟨23, _⟩ => ⟨S4x8192x1, .i1⟩
  | .hbm, ⟨24, _⟩ => ⟨S4x8192x1, .i1⟩
  | .hbm, ⟨25, _⟩ => ⟨S_, .i1⟩
  | .hbm, ⟨26, _⟩ => ⟨S4x8192, .i1⟩
  | .hbm, ⟨27, _⟩ => ⟨S4x8192x1024, .f32⟩
  | .hbm, ⟨28, _⟩ => ⟨S4x8192x1024, .i1⟩
  | .hbm, ⟨29, _⟩ => ⟨S_, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x8192, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S_, .f32⟩
  | .hbm, ⟨46, _⟩ => ⟨S4x8192x1, .f32⟩
  | .hbm, ⟨47, _⟩ => ⟨S4x8192x1, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x8192x1, .f32⟩
  | .hbm, ⟨54, _⟩ => ⟨S4x8192x1024, .f32⟩
  | .hbm, ⟨55, _⟩ => ⟨S4x8192x1024, .f32⟩
  | .hbm, ⟨56, _⟩ => ⟨S1x1x1024, .f32⟩
  | .hbm, ⟨57, _⟩ => ⟨S4x8192x1024, .f32⟩
  | .hbm, ⟨58, _⟩ => ⟨S4x8192x1024, .f32⟩
  | .hbm, ⟨59, _⟩ => ⟨S1x1x1024, .f32⟩
  | .hbm, ⟨60, _⟩ => ⟨S4x8192x1024, .f32⟩
  | .hbm, ⟨61, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_cst_0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  shapeCasts_S1x8192_S1x1x1x8192 : S1x8192.ShapeCasts S1x1x1x8192
  bcast_S1x1x1x8192_S4x1x1x8192_0_1_2_3 : S1x1x1x8192.BroadcastsInDim S4x1x1x8192 (![0, 1, 2, 3] : Fin 4 → Fin S4x1x1x8192.rank)
  shapeCasts_S4x1x1x8192_S4x8192 : S4x1x1x8192.ShapeCasts S4x8192
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x1024_0_1 : S4x8192.BroadcastsInDim S4x8192x1024 (![0, 1] : Fin 2 → Fin S4x8192x1024.rank)
  bcast_S_S4x8192x1024 : S_.BroadcastsInDim S4x8192x1024 (![] : Fin 0 → Fin S4x8192x1024.rank)
  reducesTo_S4x8192x1024_S4x8192_d2 : S4x8192x1024.ReducesTo [2] S4x8192
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  gather_S8192x1024_S4x8192x1_S4x8192x1024_2_0_n_n_0_2_11024_wf : GatherDims.WF S8192x1024 S4x8192x1 S4x8192x1024 [2] [0] [] [0] [] 2 ![1, 1024]

variable [Facts₀]

def gather_S8192x1024_S4x8192x1_S4x8192x1024_2_0_n_n_0_2_11024 : GatherDims S8192x1024 S4x8192x1 S4x8192x1024 where
  offsetDims := [2]
  collapsedSliceDims := [0]
  operandBatchingDims := []
  startIndicesBatchingDims := []
  startIndexMap := [0]
  indexVectorDim := 2
  sliceSizes := ![1, 1024]
  wf := gather_S8192x1024_S4x8192x1_S4x8192x1024_2_0_n_n_0_2_11024_wf

class Facts : Prop extends Facts₀ where

variable [Facts]
-- ==== Proof.Row.lean ====
/-
  One row of a layer normalisation over 1024 lanes, on the extended reals.

  For a row `h : Fin 1024 → EReal` the mean is the row's sum divided by 1024, the centred row is `h − mean`, the
  variance is the sum of the centred squares divided by 1024, and the normalised row is the centred row scaled by the
  inverse square root of `variance + ε`, then by a gain, plus an offset. Two spellings of the scaling are compared:
  multiplying by `(variance + ε)^(-1/2)` and dividing by `(variance + ε)^(1/2)`. They agree when every entry of the
  row is a real number: then the variance is a real that is not negative, `ε` is a positive real, so `variance + ε` is
  a positive real `v`, and `c · (√v)⁻¹ = c / √v` in the reals.
-/
import Idealize.ShloMosaic.PureOps.Ideal.Laws

noncomputable section

namespace Cert.LNorm

open Idealize.ShloMosaic
open scoped BigOperators

/-- The number of lanes, 1024, as the f32 pattern both programs print. -/
abbrev lanesW : EReal := Ideal.ofBits .f32 0x44800000#32
/-- The stabiliser ε, the f32 nearest to 1e-5, as the pattern both programs print. -/
abbrev epsW : EReal := Ideal.ofBits .f32 0x3727C5AC#32

/-- The row's mean: its sum over the lanes divided by the lane count. -/
def mean (h : Fin 1024 → EReal) : EReal := Ideal.div (∑ k : Fin 1024, h k) lanesW
/-- The centred row. -/
def cen (h : Fin 1024 → EReal) (k : Fin 1024) : EReal := h k - mean h
/-- The row's variance: the mean of the centred squares. -/
def var (h : Fin 1024 → EReal) : EReal := Ideal.div (∑ k : Fin 1024, cen h k * cen h k) lanesW
/-- The normalised row scaled by multiplying with the inverse square root. -/
def rowMul (h : Fin 1024 → EReal) (g b : EReal) (k : Fin 1024) : EReal :=
  cen h k * Ideal.rsqrt (var h + epsW) * g + b
/-- The normalised row scaled by dividing by the square root. -/
def rowDiv (h : Fin 1024 → EReal) (g b : EReal) (k : Fin 1024) : EReal :=
  Ideal.div (cen h k) (Ideal.sqrt (var h + epsW)) * g + b

/-- A finite sum of coerced reals is the coercion of the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The lane count is the real number 1024. -/
theorem lanesW_eq : lanesW = ((1024 : ℝ) : EReal) := by
  simp [lanesW, Ideal.ofBits, Ideal.ieee, -EReal.coe_mul]; norm_num

/-- The stabiliser is a positive real. -/
theorem epsW_pos : ∃ e : ℝ, 0 < e ∧ epsW = (e : EReal) := by
  simp [epsW, Ideal.ofBits, Ideal.ieee, -EReal.coe_mul]

/-- On a row of real numbers the two scalings agree. -/
theorem rowDiv_eq_rowMul (h : Fin 1024 → EReal) (hfin : ∀ k, ∃ r : ℝ, h k = (r : EReal)) (g b : EReal) (k : Fin 1024) :
    rowDiv h g b k = rowMul h g b k := by
  -- the row is a row of reals r
  choose r hr using hfin
  obtain rfl : h = fun j => (r j : EReal) := funext hr
  obtain ⟨e, he, hE⟩ := epsW_pos
  -- the mean is the real m = (Σ r) / 1024
  have hmean : mean (fun j => (r j : EReal)) = (((∑ j, r j) * (1 / 1024) : ℝ) : EReal) := by
    unfold mean
    rw [lanesW_eq, Ideal.div_coe (by norm_num), coe_sum, ← EReal.coe_mul]
  -- the centred entries are the reals r j − m
  have hcen : ∀ j, cen (fun j => (r j : EReal)) j = ((r j - (∑ j, r j) * (1 / 1024) : ℝ) : EReal) := by
    intro j
    unfold cen
    rw [hmean, ← EReal.coe_sub]
  -- the variance is the real (Σ (r j − m)²) / 1024, which is not negative
  have hvar : var (fun j => (r j : EReal))
      = (((∑ j, (r j - (∑ j, r j) * (1 / 1024)) * (r j - (∑ j, r j) * (1 / 1024))) * (1 / 1024) : ℝ) : EReal) := by
    unfold var
    rw [lanesW_eq, Ideal.div_coe (by norm_num)]
    simp only [hcen, ← EReal.coe_mul]
    rw [coe_sum, ← EReal.coe_mul]
  have hv0 : 0 ≤ (∑ j, (r j - (∑ j, r j) * (1 / 1024)) * (r j - (∑ j, r j) * (1 / 1024))) * (1 / 1024 : ℝ) :=
    mul_nonneg (Finset.sum_nonneg (fun j _ => mul_self_nonneg _)) (by norm_num)
  unfold rowDiv rowMul
  rw [hvar, hE, ← EReal.coe_add, hcen k]
  -- v = variance + ε is a positive real
  generalize (r k - (∑ j, r j) * (1 / 1024)) = c
  generalize hv : (∑ j, (r j - (∑ j, r j) * (1 / 1024)) * (r j - (∑ j, r j) * (1 / 1024))) * (1 / 1024 : ℝ) + e = v
  have hvpos : 0 < v := by rw [← hv]; linarith
  have hs : Real.sqrt v ≠ 0 := (Real.sqrt_pos.mpr hvpos).ne'
  -- √v is a nonzero real, so both scalings are c · (√v)⁻¹
  rw [Ideal.sqrt_coe, Ideal.rsqrt_coe, if_neg (not_lt.mpr hvpos.le), if_neg (not_lt.mpr hvpos.le),
    if_neg hvpos.ne', Ideal.div_coe hs, one_div]

end Cert.LNorm

end
-- ==== Proof.Spec.lean ====
/-
  The result both programs compute, as ONE function of the four argument arrays, index by index.

  At batch row `p`, sequence position `r` and lane `k`, the result is the layer normalisation over the lanes of the row
  `x[p, r, ·] + table[r, ·]` (the activations plus the positional table's row for that position), read at lane `k`,
  scaled by the gain's lane `k` and shifted by the offset's lane `k`.
-/
import proofs.«154409_g42271068127815_cont_8to1_b_858_16_alg».proof.Proof.Row
import Idealize.ShloMosaic.Lib.ValueIdx

noncomputable section

namespace Cert.LNorm

open Idealize.ShloMosaic Idealize.ShloMosaic.ValueIdx

/-- The row that is normalised at batch row `p` and position `r`: the activations' row plus the table's row. -/
def rowOf (x : (⟨3, ![4, 8192, 1024]⟩ : Shape).Idx → EReal) (t : (⟨2, ![8192, 1024]⟩ : Shape).Idx → EReal)
    (p : Fin 4) (r : Fin 8192) : Fin 1024 → EReal :=
  fun k => x (ix3 p r k) + t (ix2 r k)

/-- The result at coordinates `(p, r, k)`, the scaling spelt as a product with the inverse square root. -/
def lnAt (x : (⟨3, ![4, 8192, 1024]⟩ : Shape).Idx → EReal) (t : (⟨2, ![8192, 1024]⟩ : Shape).Idx → EReal)
    (g b : (⟨1, ![1024]⟩ : Shape).Idx → EReal) (p : Fin 4) (r : Fin 8192) (k : Fin 1024) : EReal :=
  rowMul (rowOf x t p r) (g (ix1 k)) (b (ix1 k)) k

/-- The whole result array. -/
def G (x : (⟨3, ![4, 8192, 1024]⟩ : Shape).Idx → EReal) (t : (⟨2, ![8192, 1024]⟩ : Shape).Idx → EReal)
    (g b : (⟨1, ![1024]⟩ : Shape).Idx → EReal) : (⟨3, ![4, 8192, 1024]⟩ : Shape).Idx → EReal :=
  fun i => lnAt x t g b (i 0) (i 1) (i 2)

theorem G_ix3 (x : (⟨3, ![4, 8192, 1024]⟩ : Shape).Idx → EReal) (t : (⟨2, ![8192, 1024]⟩ : Shape).Idx → EReal)
    (g b : (⟨1, ![1024]⟩ : Shape).Idx → EReal) (p : Fin 4) (r : Fin 8192) (k : Fin 1024) :
    G x t g b (ix3 p r k) = lnAt x t g b p r k := rfl

end Cert.LNorm

end
-- ==== Proof.KernelBlock.lean ====
/-
  What one grid point's body leaves in its output block, read at block coordinates `(p, r, k)`: the layer normalisation
  over the lanes of the row `x-block[p, r, ·] + table-block[r, ·]`, at lane `k`, times the gain block's lane `k`, plus the
  offset block's lane `k`.

  The block is a pointwise expression of the four loaded blocks and of two lane sums. The table block enters through a
  leading unit axis replicated over the 4 batch rows, so at `(p, r, k)` it reads `table-block[r, k]`. A lane sum at
  `(p, r)` is the sum over `k` of its operand at `(p, r, k)`. A per-row column `[4, 512, 1]` (a sum given a trailing unit
  axis and divided by the lane count) replicated over the lanes reads, at `(p, r, k)`, the column's entry `(p, r)`. With
  these three readings the first lane sum is the row's sum, the centred block is the centred row, and the second lane sum
  is the sum of the centred row's squares.
-/
import proofs.«154409_g42271068127815_cont_8to1_b_858_16_alg».proof.Proof.Gen.KernelIdeal.Value
import proofs.«154409_g42271068127815_cont_8to1_b_858_16_alg».proof.Proof.Spec
import Idealize.ShloMosaic.PureOps.Ideal.Laws
import Idealize.ShloMosaic.Lib.ValueIdx

noncomputable section

namespace Cert.KernelIdeal.Block

open Cert.KernelIdeal Cert.KernelIdeal.Gen Idealize.ShloMosaic Idealize.ShloMosaic.ValueIdx Cert.LNorm
open scoped BigOperators

/-! ## The three readings -/

/-- A lane sum of a `[4, 512, 1024]` block at `(p, r)` is the sum over the lanes of the block at `(p, r, k)`. -/
theorem laneSum_at (src : FVec Ideal S4x512x1024 .f32) (hred : S4x512x1024.Reduces [2] S4x512) (hφ : FKind.Formats .f32)
    (hacc : (0x00000000#32 : BitVec 32) = FKind.add.neutral .f32 hφ) (p : Fin 4) (r : Fin 512) :
    multiReduction .add [2] S4x512 src 0x00000000#32 hred hφ hacc (ix2 p r) = ∑ k : Fin 1024, src (ix3 p r k) := by
  refine (Ideal.multiReduction_add_single src 0x00000000#32 hred hφ hacc (ix2 p r)).trans ?_
  exact Finset.sum_congr rfl fun k _ => congrArg src (funext fun a => match a with | ⟨0, _⟩ => rfl | ⟨1, _⟩ => rfl | ⟨2, _⟩ => rfl)

/-- The table block given a leading unit axis and replicated over the batch rows reads `table-block[r, k]` at `(p, r, k)`. -/
theorem rowsBcast_at (P1 : Vec Ideal S512x1024 .f32) (p : Fin 4) (r : Fin 512) (k : Fin 1024) :
    broadcastTo S4x512x1024 (shapeCast S1x512x1024 P1 shapeCasts_S512x1024_S1x512x1024) broadcasts_S1x512x1024_S4x512x1024 (ix3 p r k)
      = P1 (ix2 r k) := by
  refine (broadcastTo_apply _ _ (ix3 p r k) (ix3 (0 : Fin 1) r k) (fun a => match a with
    | ⟨0, _⟩ => by show 0 = (if (1 : Nat) = 1 then 0 else p.val); rw [if_pos rfl]
    | ⟨1, _⟩ => by show r.val = (if (512 : Nat) = 1 then 0 else r.val); rw [if_neg (by decide)]
    | ⟨2, _⟩ => by show k.val = (if (1024 : Nat) = 1 then 0 else k.val); rw [if_neg (by decide)])).trans ?_
  exact shapeCast_apply _ _ (ix3 (0 : Fin 1) r k) (ix2 r k)
    (by rw [Shape.rowMajor_val_two, Shape.rowMajor_val_three]; show r.val * 1024 + k.val = (0 * 512 + r.val) * 1024 + k.val; omega)

/-- A per-row column replicated over the lanes reads the column's entry `(p, r)` at `(p, r, k)`. -/
theorem colBcast_at (v : Vec Ideal S4x512x1 .f32) (p : Fin 4) (r : Fin 512) (k : Fin 1024) :
    broadcastTo S4x512x1024 v broadcasts_S4x512x1_S4x512x1024 (ix3 p r k) = v (ix3 p r (0 : Fin 1)) :=
  broadcastTo_apply _ _ (ix3 p r k) (ix3 p r (0 : Fin 1)) (fun a => match a with
    | ⟨0, _⟩ => by show p.val = (if (4 : Nat) = 1 then 0 else p.val); rw [if_neg (by decide)]
    | ⟨1, _⟩ => by show r.val = (if (512 : Nat) = 1 then 0 else r.val); rw [if_neg (by decide)]
    | ⟨2, _⟩ => by show 0 = (if (1 : Nat) = 1 then 0 else k.val); rw [if_pos rfl])

/-- A `[4, 512]` array given a trailing unit axis reads its entry `(p, r)` at `(p, r, 0)`. -/
theorem colCast_at (u : Vec Ideal S4x512 .f32) (p : Fin 4) (r : Fin 512) :
    shapeCast S4x512x1 u shapeCasts_S4x512_S4x512x1 (ix3 p r (0 : Fin 1)) = u (ix2 p r) :=
  shapeCast_apply _ _ (ix3 p r (0 : Fin 1)) (ix2 p r)
    (by rw [Shape.rowMajor_val_two, Shape.rowMajor_val_three]; show p.val * 512 + r.val = (p.val * 512 + r.val) * 1 + 0; omega)

/-! ## The block's pieces -/

/-- The activations' block plus the table's block replicated over the batch rows. -/
abbrev hsumB (P0 : Vec Ideal S4x512x1024 .f32) (P1 : Vec Ideal S512x1024 .f32) : FVec Ideal S4x512x1024 .f32 :=
  addf P0 (broadcastTo S4x512x1024 (shapeCast S1x512x1024 P1 shapeCasts_S512x1024_S1x512x1024) broadcasts_S1x512x1024_S4x512x1024)
/-- The lane sum of a block. -/
abbrev sumB (src : FVec Ideal S4x512x1024 .f32) : FVec Ideal S4x512 .f32 :=
  multiReduction .add [2] S4x512 src 0x00000000#32 reduces_S4x512x1024_S4x512 (.inl rfl) rfl
/-- A per-row array divided by the lane count, as a column. -/
abbrev colB (u : FVec Ideal S4x512 .f32) : FVec Ideal S4x512x1 .f32 :=
  divf (shapeCast S4x512x1 u shapeCasts_S4x512_S4x512x1) (broadcast S4x512x1 (Scalar.ofBits .f32 0x44800000#32))
/-- The summed block minus its rows' means. -/
abbrev cenB (P0 : Vec Ideal S4x512x1024 .f32) (P1 : Vec Ideal S512x1024 .f32) : FVec Ideal S4x512x1024 .f32 :=
  subf (hsumB P0 P1) (broadcastTo S4x512x1024 (colB (sumB (hsumB P0 P1))) broadcasts_S4x512x1_S4x512x1024)

/-- The block as a pointwise expression of the loaded blocks and the two lane sums. -/
theorem E4_shape (P0 : Vec Ideal S4x512x1024 .f32) (P1 : Vec Ideal S512x1024 .f32) (P2 P3 : Vec Ideal S1x1024 .f32)
    (y : S4x512x1024.Idx) :
    Value.E4 P0 P1 P2 P3 y
      = (P0 (Value.ix4_0 y) + P1 (Value.ix4_1 y) - Ideal.div (sumB (hsumB P0 P1) (Value.ix4_2 y)) lanesW)
          * Ideal.rsqrt (Ideal.div (sumB (mulf (cenB P0 P1) (cenB P0 P1)) (Value.ix4_3 y)) lanesW + epsW)
          * P2 (Value.ix4_4 y) + P3 (Value.ix4_5 y) := rfl

/-- The row a block point normalises: the activations' block row plus the table's block row. -/
def rowB (P0 : Vec Ideal S4x512x1024 .f32) (P1 : Vec Ideal S512x1024 .f32) (p : Fin 4) (r : Fin 512) : Fin 1024 → EReal :=
  fun k => P0 (ix3 p r k) + P1 (ix2 r k)

theorem hsumB_at (P0 : Vec Ideal S4x512x1024 .f32) (P1 : Vec Ideal S512x1024 .f32) (p : Fin 4) (r : Fin 512) (k : Fin 1024) :
    hsumB P0 P1 (ix3 p r k) = rowB P0 P1 p r k := by
  show P0 (ix3 p r k) + _ = P0 (ix3 p r k) + P1 (ix2 r k)
  rw [rowsBcast_at]

theorem sum_hsumB_at (P0 : Vec Ideal S4x512x1024 .f32) (P1 : Vec Ideal S512x1024 .f32) (p : Fin 4) (r : Fin 512) :
    sumB (hsumB P0 P1) (ix2 p r) = ∑ k : Fin 1024, rowB P0 P1 p r k :=
  (laneSum_at _ _ _ _ p r).trans (Finset.sum_congr rfl fun k _ => hsumB_at P0 P1 p r k)

theorem cenB_at (P0 : Vec Ideal S4x512x1024 .f32) (P1 : Vec Ideal S512x1024 .f32) (p : Fin 4) (r : Fin 512) (k : Fin 1024) :
    cenB P0 P1 (ix3 p r k) = cen (rowB P0 P1 p r) k := by
  show hsumB P0 P1 (ix3 p r k) - broadcastTo S4x512x1024 (colB (sumB (hsumB P0 P1))) broadcasts_S4x512x1_S4x512x1024 (ix3 p r k) = _
  rw [hsumB_at, colBcast_at]
  show rowB P0 P1 p r k - Ideal.div (shapeCast S4x512x1 (sumB (hsumB P0 P1)) shapeCasts_S4x512_S4x512x1 (ix3 p r (0 : Fin 1))) lanesW = _
  rw [colCast_at, sum_hsumB_at]
  rfl

theorem sum_sq_at (P0 : Vec Ideal S4x512x1024 .f32) (P1 : Vec Ideal S512x1024 .f32) (p : Fin 4) (r : Fin 512) :
    sumB (mulf (cenB P0 P1) (cenB P0 P1)) (ix2 p r) = ∑ k : Fin 1024, cen (rowB P0 P1 p r) k * cen (rowB P0 P1 p r) k :=
  (laneSum_at _ _ _ _ p r).trans (Finset.sum_congr rfl fun k _ => by
    show cenB P0 P1 (ix3 p r k) * cenB P0 P1 (ix3 p r k) = _
    rw [cenB_at])

/-! ## The block at block coordinates -/

/-- The output block at `(p, r, k)` is the normalised row of the loaded blocks at lane `k`. -/
theorem block_at (P0 : Vec Ideal S4x512x1024 .f32) (P1 : Vec Ideal S512x1024 .f32) (P2 P3 : Vec Ideal S1x1024 .f32)
    (p : Fin 4) (r : Fin 512) (k : Fin 1024) :
    Value.E4 P0 P1 P2 P3 (ix3 p r k) = rowMul (rowB P0 P1 p r) (P2 (ix2 (0 : Fin 1) k)) (P3 (ix2 (0 : Fin 1) k)) k := by
  have i0 : Value.ix4_0 (ix3 p r k) = ix3 p r k := funext fun a => match a with | ⟨0, _⟩ => rfl | ⟨1, _⟩ => rfl | ⟨2, _⟩ => rfl
  have i1 : Value.ix4_1 (ix3 p r k) = ix2 r k := funext fun a => match a with | ⟨0, _⟩ => rfl | ⟨1, _⟩ => rfl
  have i2 : Value.ix4_2 (ix3 p r k) = ix2 p r := funext fun a => match a with | ⟨0, _⟩ => rfl | ⟨1, _⟩ => rfl
  have i3 : Value.ix4_3 (ix3 p r k) = ix2 p r := funext fun a => match a with | ⟨0, _⟩ => rfl | ⟨1, _⟩ => rfl
  have i4 : Value.ix4_4 (ix3 p r k) = ix2 (0 : Fin 1) k := funext fun a => match a with | ⟨0, _⟩ => rfl | ⟨1, _⟩ => rfl
  have i5 : Value.ix4_5 (ix3 p r k) = ix2 (0 : Fin 1) k := funext fun a => match a with | ⟨0, _⟩ => rfl | ⟨1, _⟩ => rfl
  rw [E4_shape, i0, i1, i2, i3, i4, i5, sum_hsumB_at, sum_sq_at]
  rfl

end Cert.KernelIdeal.Block

end
-- ==== Proof.KernelValue.lean ====
/-
  The kernel's result array as one function of the argument arrays.

  The grid has 16 points. Point `t` stages rows `512·t … 512·t + 511` of the activations (all 4 batch rows, all lanes) and
  of the positional table, the whole gain and the whole offset (each first given a leading unit axis), and writes back
  rows `512·t … 512·t + 511` of the result. What it writes at block coordinates `(p, r, k)` is the normalised row of its
  loaded blocks; read through the blocks, that is the specification at `(p, 512·t + r, k)`. The 16 row blocks cover the
  array — position `r` lies in block `r / 512` — so after the run the result array is the specification everywhere.
-/
import proofs.«154409_g42271068127815_cont_8to1_b_858_16_alg».proof.Proof.KernelBlock
import Idealize.ShloMosaic.Lib.Pipeline.Value
import Idealize.ShloMosaic.Lib.StableHlo.Run

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Idealize.ShloMosaic.StableHlo Cert.LNorm
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: point `t` takes row block `t` of the activations, of the table and
    of the result, and block zero of the gain and the offset. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-! ## The gain and the offset as the region finds them -/

/-- The gain's staged array is the gain argument given a leading unit axis. -/
theorem V_gain (c : Dev nD) : (V m c main_v0 : S1x1024.Idx → EReal)
    = shapeCast S1x1024 (m ((c : Thread nD τ).loc main_arg2)) shapeCasts_S1024_S1x1024 := by
  dsimp only [V, hostOps0]
  after_results
  rfl

/-- The offset's staged array is the offset argument given a leading unit axis. -/
theorem V_offset (c : Dev nD) : (V m c main_v1 : S1x1024.Idx → EReal)
    = shapeCast S1x1024 (m ((c : Thread nD τ).loc main_arg3)) shapeCasts_S1024_S1x1024 := by
  dsimp only [V, hostOps0]
  after_results
  rfl

/-- A lane vector given a leading unit axis reads its lane `k` at `(0, k)`. -/
theorem rowCast_at (g : S1024.Idx → EReal) (k : Fin 1024) :
    shapeCast S1x1024 g shapeCasts_S1024_S1x1024 (ix2 (0 : Fin 1) k) = g (ix1 k) :=
  shapeCast_apply _ _ (ix2 (0 : Fin 1) k) (ix1 k)
    (by rw [Shape.rowMajor_val_one, Shape.rowMajor_val_two]; show k.val = 0 * 1024 + k.val; omega)

/-! ## One grid point -/

/-- What a point leaves in its output block, when its loaded blocks are row block `q` of arrays `X`, `T` and the whole
    of `g`, `b`: the specification at `(p, 512·q + r, k)`. -/
theorem point_eq (x0 : Vec Ideal S4x512x1024 .f32) (x1 : Vec Ideal S512x1024 .f32) (x2 x3 : Vec Ideal S1x1024 .f32)
    (X : S4x8192x1024.Idx → EReal) (T : S8192x1024.Idx → EReal) (g b : S1024.Idx → EReal) (q : Nat) (hq : q < 16)
    (h0 : ∀ (p : Fin 4) (r : Fin 512) (k : Fin 1024), x0 (ix3 p r k) = X (ix3 p (⟨q * 512 + r.val, by omega⟩ : Fin 8192) k))
    (h1 : ∀ (r : Fin 512) (k : Fin 1024), x1 (ix2 r k) = T (ix2 (⟨q * 512 + r.val, by omega⟩ : Fin 8192) k))
    (h2 : ∀ k : Fin 1024, x2 (ix2 (0 : Fin 1) k) = g (ix1 k)) (h3 : ∀ k : Fin 1024, x3 (ix2 (0 : Fin 1) k) = b (ix1 k))
    (p : Fin 4) (r : Fin 512) (k : Fin 1024) :
    out0_4 x0 x1 x2 x3 (ix3 p r k) = lnAt X T g b p (⟨q * 512 + r.val, by omega⟩ : Fin 8192) k := by
  unfold out0_4
  rw [Value.canon4_eq, block_at]
  simp only [View.ld_unit_zero (S := S4x512x1024) hz3, View.ld_unit_zero (S := S512x1024) hz2,
    View.ld_unit_zero (S := S1x1024) hz2]
  have e : rowB x0 x1 p r = rowOf X T p (⟨q * 512 + r.val, by omega⟩ : Fin 8192) :=
    funext fun k' => by show x0 (ix3 p r k') + x1 (ix2 r k') = X _ + T _; rw [h0, h1]
  have l2 : View.ld x2 r0_2 (ix2 (0 : Fin 1) k) = x2 (ix2 (0 : Fin 1) k) :=
    congrFun (View.ld_unit_zero (S := S1x1024) hz2 _ x2) _
  have l3 : View.ld x3 r0_2 (ix2 (0 : Fin 1) k) = x3 (ix2 (0 : Fin 1) k) :=
    congrFun (View.ld_unit_zero (S := S1x1024) hz2 _ x3) _
  rw [e, l2, l3, h2, h3]
  rfl

/-- What point `t` writes back is block `t` of the specification of the arrays as the region finds them. -/
theorem flushed_eq (c : Dev nD) (t : Fin cfg0.N) :
    (dats m 0 c).flushed 4 t = ((cfg0.win 4).blk t).view.read (Elt Ideal)
      (G (V m c main_arg0) (V m c main_arg1) (m ((c : Thread nD τ).loc main_arg2)) (m ((c : Thread nD τ).loc main_arg3))) := by
  rw [Value.flushed4]
  obtain ⟨a0, a1, a2, b0, b1, g0, g1, o0, o1, z0, z1, z2⟩ := idx_facts t
  have ht : t.val < 16 := by have h := t.isLt; have hN : cfg0.N = 16 := N_0; omega
  funext j
  have hj0 : (j 0).val < 4 := (j 0).isLt
  have hj1 : (j 1).val < 512 := (j 1).isLt
  have hj2 : (j 2).val < 1024 := (j 2).isLt
  show out0_4 (iblk m c 0 t) (iblk m c 1 t) (iblk m c 2 t) (iblk m c 3 t) j
    = G (V m c main_arg0) (V m c main_arg1) (m ((c : Thread nD τ).loc main_arg2)) (m ((c : Thread nD τ).loc main_arg3))
        (((cfg0.win 4).blk t).view.emb j)
  have e : ((cfg0.win 4).blk t).view.emb j
      = ix3 (⟨(j 0).val, hj0⟩ : Fin 4) (⟨t.val * 512 + (j 1).val, by omega⟩ : Fin 8192) (⟨(j 2).val, hj2⟩ : Fin 1024) := by
    funext a; apply Fin.ext
    match a with
    | ⟨0, _⟩ => show win0_4.index t (0 : Fin 3) * 4 + 1 * (j 0).val = (j 0).val; omega
    | ⟨1, _⟩ => show win0_4.index t (1 : Fin 3) * 512 + 1 * (j 1).val = t.val * 512 + (j 1).val; omega
    | ⟨2, _⟩ => show win0_4.index t (2 : Fin 3) * 1024 + 1 * (j 2).val = (j 2).val; omega
  have ej : (j : S4x512x1024.Idx)
      = ix3 (⟨(j 0).val, hj0⟩ : Fin 4) (⟨(j 1).val, hj1⟩ : Fin 512) (⟨(j 2).val, hj2⟩ : Fin 1024) := by
    funext a; apply Fin.ext
    match a with
    | ⟨0, _⟩ => rfl
    | ⟨1, _⟩ => rfl
    | ⟨2, _⟩ => rfl
  rw [e, G_ix3]
  refine (congrArg (out0_4 (iblk m c 0 t) (iblk m c 1 t) (iblk m c 2 t) (iblk m c 3 t)) ej).trans ?_
  refine point_eq (iblk m c 0 t) (iblk m c 1 t) (iblk m c 2 t) (iblk m c 3 t) (V m c main_arg0) (V m c main_arg1)
    (m ((c : Thread nD τ).loc main_arg2)) (m ((c : Thread nD τ).loc main_arg3)) t.val ht ?_ ?_ ?_ ?_
    (⟨(j 0).val, hj0⟩ : Fin 4) (⟨(j 1).val, hj1⟩ : Fin 512) (⟨(j 2).val, hj2⟩ : Fin 1024)
  · intro p r k
    have hp : p.val < 4 := p.isLt
    have hr : r.val < 512 := r.isLt
    have hk : k.val < 1024 := k.isLt
    show V m c main_arg0 (((cfg0.win 0).blk t).view.emb (ix3 p r k)) = V m c main_arg0 (ix3 p (⟨t.val * 512 + r.val, by omega⟩ : Fin 8192) k)
    refine congrArg (V m c main_arg0) (funext fun a => Fin.ext ?_)
    match a with
    | ⟨0, _⟩ => show win0_0.index t (0 : Fin 3) * 4 + 1 * p.val = p.val; omega
    | ⟨1, _⟩ => show win0_0.index t (1 : Fin 3) * 512 + 1 * r.val = t.val * 512 + r.val; omega
    | ⟨2, _⟩ => show win0_0.index t (2 : Fin 3) * 1024 + 1 * k.val = k.val; omega
  · intro r k
    have hr : r.val < 512 := r.isLt
    have hk : k.val < 1024 := k.isLt
    show V m c main_arg1 (((cfg0.win 1).blk t).view.emb (ix2 r k)) = V m c main_arg1 (ix2 (⟨t.val * 512 + r.val, by omega⟩ : Fin 8192) k)
    refine congrArg (V m c main_arg1) (funext fun a => Fin.ext ?_)
    match a with
    | ⟨0, _⟩ => show win0_1.index t (0 : Fin 2) * 512 + 1 * r.val = t.val * 512 + r.val; omega
    | ⟨1, _⟩ => show win0_1.index t (1 : Fin 2) * 1024 + 1 * k.val = k.val; omega
  · intro k
    have hk : k.val < 1024 := k.isLt
    show V m c main_v0 (((cfg0.win 2).blk t).view.emb (ix2 (0 : Fin 1) k)) = _
    have e2 : ((cfg0.win 2).blk t).view.emb (ix2 (0 : Fin 1) k) = ix2 (0 : Fin 1) k := by
      funext a; apply Fin.ext
      match a with
      | ⟨0, _⟩ => show win0_2.index t (0 : Fin 2) * 1 + 1 * 0 = 0; omega
      | ⟨1, _⟩ => show win0_2.index t (1 : Fin 2) * 1024 + 1 * k.val = k.val; omega
    rw [e2]
    exact (congrFun (V_gain m c) (ix2 (0 : Fin 1) k)).trans (rowCast_at _ k)
  · intro k
    have hk : k.val < 1024 := k.isLt
    show V m c main_v1 (((cfg0.win 3).blk t).view.emb (ix2 (0 : Fin 1) k)) = _
    have e3 : ((cfg0.win 3).blk t).view.emb (ix2 (0 : Fin 1) k) = ix2 (0 : Fin 1) k := by
      funext a; apply Fin.ext
      match a with
      | ⟨0, _⟩ => show win0_3.index t (0 : Fin 2) * 1 + 1 * 0 = 0; omega
      | ⟨1, _⟩ => show win0_3.index t (1 : Fin 2) * 1024 + 1 * k.val = k.val; omega
    rw [e3]
    exact (congrFun (V_offset m c) (ix2 (0 : Fin 1) k)).trans (rowCast_at _ k)

/-! ## The whole array -/

/-- An index of the result array is in point `t`'s block iff each coordinate is in the block's range on its axis. -/
theorem mem_blk (t : Fin cfg0.N) (i : S4x8192x1024.Idx) :
    i ∈ ((cfg0.win 4).blk t).view.set ↔ ∀ a : Fin 3, win0_4.index t a * S4x512x1024.size a ≤ (i a).val
      ∧ (i a).val < win0_4.index t a * S4x512x1024.size a + S4x512x1024.size a := by
  show i ∈ ((View.whole main_v2).slice (win0_4.rect t)).set ↔ _
  rw [View.set_slice_whole, Rect.mem_set_unit]
  exact Iff.rfl

/-- Every index of the result array lies in some point's block: position `r` in block `r / 512`. -/
theorem cover (i : S4x8192x1024.Idx) :
    ∃ t : Fin cfg0.N, (cfg0.win 4).flush t = true ∧ i ∈ ((cfg0.win 4).blk t).view.set := by
  have hi0 : (i 0).val < 4 := (i 0).isLt
  have hi1 : (i 1).val < 8192 := (i 1).isLt
  have hi2 : (i 2).val < 1024 := (i 2).isLt
  have hN : cfg0.N = 16 := N_0
  obtain ⟨t, htv⟩ : ∃ t : Fin cfg0.N, t.val = (i 1).val / 512 := ⟨⟨(i 1).val / 512, by rw [hN]; omega⟩, rfl⟩
  obtain ⟨_, _, _, _, _, _, _, _, _, z0, z1, z2⟩ := idx_facts t
  refine ⟨t, flush0_4 t, ?_⟩
  rw [mem_blk]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 512 ≤ (i 1).val ∧ (i 1).val < win0_4.index t (1 : Fin 3) * 512 + 512; omega
  | ⟨2, _⟩ => show win0_4.index t (2 : Fin 3) * 1024 ≤ (i 2).val ∧ (i 2).val < win0_4.index t (2 : Fin 3) * 1024 + 1024; omega

/-- After the run the result array is the specification of the argument arrays. -/
theorem final (c : Dev nD) : (dats m 0 c).arrAt 4 cfg0.N
    = G (m ((c : Thread nD τ).loc main_arg0)) (m ((c : Thread nD τ).loc main_arg1))
        (m ((c : Thread nD τ).loc main_arg2)) (m ((c : Thread nD τ).loc main_arg3)) := by
  have h := (dats m 0 c).arrAt_eq_of_cover 4
    (G (V m c main_arg0) (V m c main_arg1) (m ((c : Thread nD τ).loc main_arg2)) (m ((c : Thread nD τ).loc main_arg3)))
    (fun t _ => flushed_eq m c t) cover
  rw [V_main_arg0, V_main_arg1] at h
  exact h

/-- The kernel's run: every weakly fair execution terminates with the result array at the specification of the
    argument arrays, the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefRun.lean ====
/-
  The reference program's run, read back as one pure term of its four argument arrays.

  The reference is a straight line of 58 array operations: the positions 0 … 8191 along the sequence axis replicated over
  the batch; the table gathered at those positions (with the index wrapped when negative and the gathered rows replaced by
  a fill value where the index falls outside the table); the activations plus the gathered rows; per row the sum over the
  1024 lanes divided by 1024 (the mean), the centred row, the sum of its squares divided by 1024 (the variance), the square
  root of variance plus a constant; the centred row divided by that root, times the gain, plus the offset.
  Running the line leaves in every buffer the fold of the operations over the launch contents; at the result buffer
  that fold is the term `out` below, built from the named pieces before it, and the argument buffers are untouched.
-/
import proofs.«154409_g42271068127815_cont_8to1_b_858_16_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pure term, piece by piece -/

/-- The position along the sequence axis, for every batch row and position: the iota over 8192 positions carried through
    two unit-axis reshapes and a replication over the 4 batch rows. -/
def posGrid : (⟨S4x8192, .i32⟩ : BufTy).Contents (Elt F) :=
  shapeCast S4x8192 (broadcastInDim S4x1x1x8192 ![0, 1, 2, 3] bcast_S1x1x1x8192_S4x1x1x8192_0_1_2_3
    (shapeCast S1x1x1x8192 (broadcastInDim S1x8192 ![1] bcast_S8192_S1x8192_1 (iotaInDim S8192 32 0)) shapeCasts_S1x8192_S1x1x1x8192))
    shapeCasts_S4x1x1x8192_S4x8192

/-- The gather's start indices: a negative position is wrapped by adding the table's 8192 rows, and a trailing unit axis
    is added. -/
def startIdx : (⟨S4x8192x1, .i32⟩ : BufTy).Contents (Elt F) :=
  broadcastInDim S4x8192x1 ![0, 1] bcast_S4x8192_S4x8192x1_0_1
    (select (cmpi .slt (posGrid (F := F)) (broadcastInDim S4x8192 ![] bcast_S_S4x8192 (constantI S_ 32 0#32)))
      (addi (posGrid (F := F)) (broadcastInDim S4x8192 ![] bcast_S_S4x8192 (constantI S_ 32 8192#32))) (posGrid (F := F)))

/-- Whether the start index lies inside the table, `0 ≤ index ≤ 8191`, as an all-reduction over the trailing unit axis. -/
def inTable : (⟨S4x8192, .i1⟩ : BufTy).Contents (Elt F) :=
  Host.reduce IntOp.andi
    (andi (cmpi .sge (startIdx (F := F)) (broadcastInDim S4x8192x1 ![] bcast_S_S4x8192x1 (constantI S_ 32 0#32)))
      (cmpi .sle (startIdx (F := F)) (broadcastInDim S4x8192x1 ![0, 1, 2] bcast_S1x1x1_S4x8192x1_0_1_2
        (broadcastInDim S1x1x1 ![2] bcast_S1_S1x1x1_2 (constantI S1 32 8191#32)))))
    (constantI S_ 1 1#1) reducesTo_S4x8192x1_S4x8192_d2 h_S_

/-- The table's rows gathered at the start indices, the fill value where the index is outside the table. -/
def tableRows (t : (⟨S8192x1024, .f32⟩ : BufTy).Contents (Elt F)) : (⟨S4x8192x1024, .f32⟩ : BufTy).Contents (Elt F) :=
  select (broadcastInDim S4x8192x1024 ![0, 1] bcast_S4x8192_S4x8192x1024_0_1 (inTable (F := F)))
    (Host.gather gather_S8192x1024_S4x8192x1_S4x8192x1024_2_0_n_n_0_2_11024 t (startIdx (F := F)))
    (broadcastInDim S4x8192x1024 ![] bcast_S_S4x8192x1024 (constant S_ .f32 0x7FC00000#32))

/-- The activations plus the gathered table rows. -/
def summed (x : (⟨S4x8192x1024, .f32⟩ : BufTy).Contents (Elt F)) (t : (⟨S8192x1024, .f32⟩ : BufTy).Contents (Elt F)) :
    (⟨S4x8192x1024, .f32⟩ : BufTy).Contents (Elt F) :=
  addf x (tableRows t)

/-- A [4, 8192, 1024] array's sum over the lanes, divided by 1024, kept as a column [4, 8192, 1]. -/
def laneMean (y : (⟨S4x8192x1024, .f32⟩ : BufTy).Contents (Elt F)) : (⟨S4x8192x1, .f32⟩ : BufTy).Contents (Elt F) :=
  Host.divf (broadcastInDim S4x8192x1 ![0, 1] bcast_S4x8192_S4x8192x1_0_1
      (Host.reduceAdd y (constant S_ .f32 0x00000000#32) reducesTo_S4x8192x1024_S4x8192_d2 h_S_))
    (broadcastInDim S4x8192x1 ![] bcast_S_S4x8192x1 (constant S_ .f32 0x44800000#32))

/-- The summed array minus its rows' means. -/
def centred (x : (⟨S4x8192x1024, .f32⟩ : BufTy).Contents (Elt F)) (t : (⟨S8192x1024, .f32⟩ : BufTy).Contents (Elt F)) :
    (⟨S4x8192x1024, .f32⟩ : BufTy).Contents (Elt F) :=
  subf (summed x t) (broadcastInDim S4x8192x1024 ![0, 1, 2] bcast_S4x8192x1_S4x8192x1024_0_1_2 (laneMean (summed x t)))

/-- The square root of the rows' variance plus the stabiliser, as a column. -/
def rootCol (x : (⟨S4x8192x1024, .f32⟩ : BufTy).Contents (Elt F)) (t : (⟨S8192x1024, .f32⟩ : BufTy).Contents (Elt F)) :
    (⟨S4x8192x1, .f32⟩ : BufTy).Contents (Elt F) :=
  Host.sqrt (addf (laneMean (mulf (centred x t) (centred x t)))
    (broadcastInDim S4x8192x1 ![] bcast_S_S4x8192x1 (constant S_ .f32 0x3727C5AC#32)))

/-- The reference's result: the centred array divided by the root column, times the gain, plus the offset. -/
def out (x : (⟨S4x8192x1024, .f32⟩ : BufTy).Contents (Elt F)) (t : (⟨S8192x1024, .f32⟩ : BufTy).Contents (Elt F))
    (g b : (⟨S1024, .f32⟩ : BufTy).Contents (Elt F)) : (⟨S4x8192x1024, .f32⟩ : BufTy).Contents (Elt F) :=
  addf (mulf (Host.divf (centred x t) (broadcastInDim S4x8192x1024 ![0, 1, 2] bcast_S4x8192x1_S4x8192x1024_0_1_2 (rootCol x t)))
      (broadcastInDim S4x8192x1024 ![0, 1, 2] bcast_S1x1x1024_S4x8192x1024_0_1_2 (broadcastInDim S1x1x1024 ![2] bcast_S1024_S1x1x1024_2 g)))
    (broadcastInDim S4x8192x1024 ![0, 1, 2] bcast_S1x1x1024_S4x8192x1024_0_1_2 (broadcastInDim S1x1x1024 ![2] bcast_S1024_S1x1x1024_2 b))

/-! ## The program as a list of operations -/

/-- The program's 58 operations in order: the five that build the position grid, the gather routine's 23 written out
    at its call over the call's own buffers (the index wrap's one operation among them), then the 30 of the normalisation. -/
abbrev ops : List (HloOp τ sig (Elt F)) :=
  [
    nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    reshape main_v1 main_v2 rfl shapeCasts_S1x8192_S1x1x1x8192,
    unary main_v2 main_v3 (broadcastInDim S4x1x1x8192 ![0, 1, 2, 3] bcast_S1x1x1x8192_S4x1x1x8192_0_1_2_3 : (⟨S1x1x1x8192, .i32⟩ : BufTy).Contents (Elt F) → (⟨S4x1x1x8192, .i32⟩ : BufTy).Contents (Elt F)),
    reshape main_v3 main_v4 rfl shapeCasts_S4x1x1x8192_S4x8192,
    TRef.nullary main_call0.c (constantI S_ 32 0#32),
    TRef.unary main_call0.c main_call0.v0 (broadcastInDim S4x8192 ![] bcast_S_S4x8192),
    TRef.binary (.of main_v4) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v4) main_call0.v2 main_call0.v3 addi,
    TRef.ternary main_call0.v1 main_call0.v3 (.of main_v4) main_call0.call0.v0 select,
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1) main_call0.v5 main_call0.v13 (fun x i => Host.gather gather_S8192x1024_S4x8192x1_S4x8192x1024_2_0_n_n_0_2_11024 x i),
    TRef.unary main_call0.v12 main_call0.v14 (broadcastInDim S4x8192x1024 ![0, 1] bcast_S4x8192_S4x8192x1024_0_1),
    TRef.nullary main_call0.cst (constant S_ .f32 0x7FC00000#32),
    TRef.unary main_call0.cst main_call0.v15 (broadcastInDim S4x8192x1024 ![] bcast_S_S4x8192x1024),
    TRef.ternary main_call0.v14 main_call0.v13 main_call0.v15 main_call0.v16 select,
    binary main_arg0 main_v5 main_v6 (addf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v6 main_cst main_v7 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v7 main_v8 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v9 (broadcastInDim S4x8192x1 ![] bcast_S_S4x8192x1 : (⟨S_, .f32⟩ : BufTy).Contents (Elt F) → (⟨S4x8192x1, .f32⟩ : BufTy).Contents (Elt F)),
    binary main_v8 main_v9 main_v10 (Host.divf : (⟨S4x8192x1, .f32⟩ : BufTy).Contents (Elt F) → (⟨S4x8192x1, .f32⟩ : BufTy).Contents (Elt F) → (⟨S4x8192x1, .f32⟩ : BufTy).Contents (Elt F)),
    unary main_v10 main_v11 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v6 main_v11 main_v12 (subf : (⟨S4x8192x1024, .f32⟩ : BufTy).Contents (Elt F) → (⟨S4x8192x1024, .f32⟩ : BufTy).Contents (Elt F) → (⟨S4x8192x1024, .f32⟩ : BufTy).Contents (Elt F)),
    binary main_v12 main_v12 main_v13 (mulf : (⟨S4x8192x1024, .f32⟩ : BufTy).Contents (Elt F) → (⟨S4x8192x1024, .f32⟩ : BufTy).Contents (Elt F) → (⟨S4x8192x1024, .f32⟩ : BufTy).Contents (Elt F)),
    nullary main_cst_1 (constant S_ .f32 0x00000000#32),
    binary main_v13 main_cst_1 main_v14 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v14 main_v15 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44800000#32),
    unary main_cst_2 main_v16 (broadcastInDim S4x8192x1 ![] bcast_S_S4x8192x1 : (⟨S_, .f32⟩ : BufTy).Contents (Elt F) → (⟨S4x8192x1, .f32⟩ : BufTy).Contents (Elt F)),
    binary main_v15 main_v16 main_v17 (Host.divf : (⟨S4x8192x1, .f32⟩ : BufTy).Contents (Elt F) → (⟨S4x8192x1, .f32⟩ : BufTy).Contents (Elt F) → (⟨S4x8192x1, .f32⟩ : BufTy).Contents (Elt F)),
    unary main_v10 main_v18 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v6 main_v18 main_v19 (subf : (⟨S4x8192x1024, .f32⟩ : BufTy).Contents (Elt F) → (⟨S4x8192x1024, .f32⟩ : BufTy).Contents (Elt F) → (⟨S4x8192x1024, .f32⟩ : BufTy).Contents (Elt F)),
    nullary main_cst_3 (constant S_ .f32 0x3727C5AC#32),
    unary main_cst_3 main_v20 (broadcastInDim S4x8192x1 ![] bcast_S_S4x8192x1 : (⟨S_, .f32⟩ : BufTy).Contents (Elt F) → (⟨S4x8192x1, .f32⟩ : BufTy).Contents (Elt F)),
    binary main_v17 main_v20 main_v21 (addf : (⟨S4x8192x1, .f32⟩ : BufTy).Contents (Elt F) → (⟨S4x8192x1, .f32⟩ : BufTy).Contents (Elt F) → (⟨S4x8192x1, .f32⟩ : BufTy).Contents (Elt F)),
    unary main_v21 main_v22 (Host.sqrt : (⟨S4x8192x1, .f32⟩ : BufTy).Contents (Elt F) → (⟨S4x8192x1, .f32⟩ : BufTy).Contents (Elt F)),
    unary main_v22 main_v23 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v19 main_v23 main_v24 (Host.divf : (⟨S4x8192x1024, .f32⟩ : BufTy).Contents (Elt F) → (⟨S4x8192x1024, .f32⟩ : BufTy).Contents (Elt F) → (⟨S4x8192x1024, .f32⟩ : BufTy).Contents (Elt F)),
    unary main_arg2 main_v25 (broadcastInDim S1x1x1024 ![2] bcast_S1024_S1x1x1024_2 : (⟨S1024, .f32⟩ : BufTy).Contents (Elt F) → (⟨S1x1x1024, .f32⟩ : BufTy).Contents (Elt F)),
    unary main_v25 main_v26 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v24 main_v26 main_v27 (mulf : (⟨S4x8192x1024, .f32⟩ : BufTy).Contents (Elt F) → (⟨S4x8192x1024, .f32⟩ : BufTy).Contents (Elt F) → (⟨S4x8192x1024, .f32⟩ : BufTy).Contents (Elt F)),
    unary main_arg3 main_v28 (broadcastInDim S1x1x1024 ![2] bcast_S1024_S1x1x1024_2 : (⟨S1024, .f32⟩ : BufTy).Contents (Elt F) → (⟨S1x1x1024, .f32⟩ : BufTy).Contents (Elt F)),
    unary main_v28 main_v29 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v27 main_v29 main_v30 (addf : (⟨S4x8192x1024, .f32⟩ : BufTy).Contents (Elt F) → (⟨S4x8192x1024, .f32⟩ : BufTy).Contents (Elt F) → (⟨S4x8192x1024, .f32⟩ : BufTy).Contents (Elt F)) ]

-- fifty-eight binds to re-associate
set_option maxRecDepth 2048 in
/-- The program is that straight line: the two routines' bodies unfolded at their calls, sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ## What the buffers hold after the line -/

attribute [local irreducible] Host.reduce Host.reduceAdd Host.gather Host.divf Host.sqrt in
set_option maxRecDepth 8192 in
set_option maxHeartbeats 800000 in
/-- The fold at the result buffer is `out` of the argument buffers' contents: each operation's result is read at the
    buffer it writes and passed through at every other, which is a computation on the literal list; the reductions, the
    gather, the quotient and the root are kept closed meanwhile, the equation never looking inside them. -/
theorem out_eq (V : Valuation τ sig (Elt F)) :
    after ops V (main_v30 : DevRef τ sig)
      = out (V (main_arg0 : DevRef τ sig)) (V (main_arg1 : DevRef τ sig)) (V (main_arg2 : DevRef τ sig)) (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- From any memory with zero counters every weakly fair execution of the reference terminates, its result buffer
    holding `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v30).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RefIndex.lean ====
/-
  The reference's gathered table rows, read at an index: at batch row `p`, position `r`, lane `k` they are the table's
  entry `(r, k)`.

  The start indices come from an iota over the 8192 positions: carried through two reshapes that only add or drop unit
  axes and a replication over the batch rows, the index for `(p, r)` is the 32-bit word of `r`. Since `r < 8192 < 2³¹`
  that word read as a signed integer is `r` itself: it is not negative, so the wrap-around for negative indices keeps it;
  it lies in `[0, 8191]`, so the in-table test — an all-reduction over a unit axis, hence one conjunction with the initial
  value — is true and the gathered row is kept rather than the fill value; and the gather's clamp into `[0, 8191]` leaves
  it. The gather reads, on the table's row axis, the start index, and on its lane axis the result's lane.
-/
import proofs.«154409_g42271068127815_cont_8to1_b_858_16_alg».proof.Proof.RefRun
import Idealize.ShloMosaic.Lib.Affine
import Idealize.ShloMosaic.Lib.ValueIdx
import Idealize.ShloMosaic.Lib.IdealHost
import Idealize.ShloMosaic.Lib.Pipeline.Value

noncomputable section

namespace Cert.ReferenceIdeal.RefIndex

open Cert.ReferenceIdeal Cert.ReferenceIdeal.Gen Cert.ReferenceIdeal.RefRun Idealize.ShloMosaic Idealize.ShloMosaic.ValueIdx

/-! ## The word of a position -/

/-- A position below 8192, as a 32-bit word read signed, is itself. -/
theorem toInt_pos (r : Fin 8192) : (BitVec.ofNat 32 r.val).toInt = (r.val : Int) := by
  have hr : r.val < 8192 := r.isLt
  have hn : (BitVec.ofNat 32 r.val).toNat = r.val := by
    rw [BitVec.toNat_ofNat]; exact Nat.mod_eq_of_lt (by omega)
  rw [BitVec.toInt_eq_toNat_of_lt (by rw [hn]; omega), hn]

/-! ## The index arrays at an index -/

/-- The position grid at `(p, r)` is the word of `r`. -/
theorem posGrid_at (p : Fin 4) (r : Fin 8192) : posGrid (F := Ideal) (ix2 p r) = BitVec.ofNat 32 r.val := by
  unfold posGrid
  refine (shapeCast_apply _ _ (ix2 p r) (ix4 p (0 : Fin 1) (0 : Fin 1) r)
    (by rw [Shape.rowMajor_val_four, Shape.rowMajor_val_two]
        show ((p.val * 1 + 0) * 1 + 0) * 8192 + r.val = p.val * 8192 + r.val; omega)).trans ?_
  refine (broadcastInDim_apply _ _ _ (ix4 p (0 : Fin 1) (0 : Fin 1) r) (ix4 (0 : Fin 1) (0 : Fin 1) (0 : Fin 1) r) (fun a => match a with
    | ⟨0, _⟩ => by show 0 = (if (1 : Nat) = 1 then 0 else p.val); rw [if_pos rfl]
    | ⟨1, _⟩ => by show 0 = (if (1 : Nat) = 1 then 0 else 0); rw [if_pos rfl]
    | ⟨2, _⟩ => by show 0 = (if (1 : Nat) = 1 then 0 else 0); rw [if_pos rfl]
    | ⟨3, _⟩ => by show r.val = (if (8192 : Nat) = 1 then 0 else r.val); rw [if_neg (by decide)])).trans ?_
  refine (shapeCast_apply _ _ (ix4 (0 : Fin 1) (0 : Fin 1) (0 : Fin 1) r) (ix2 (0 : Fin 1) r)
    (by rw [Shape.rowMajor_val_two, Shape.rowMajor_val_four]
        show 0 * 8192 + r.val = ((0 * 1 + 0) * 1 + 0) * 8192 + r.val; omega)).trans ?_
  refine (broadcastInDim_apply _ _ _ (ix2 (0 : Fin 1) r) (ix1 r) (fun a => match a with
    | ⟨0, _⟩ => by show r.val = (if (8192 : Nat) = 1 then 0 else r.val); rw [if_neg (by decide)])).trans ?_
  rfl

/-- The start index at `(p, r, 0)` is the word of `r`: the word is not negative, so it is not wrapped. -/
theorem startIdx_at (p : Fin 4) (r : Fin 8192) : startIdx (F := Ideal) (ix3 p r (0 : Fin 1)) = BitVec.ofNat 32 r.val := by
  unfold startIdx
  refine (broadcastInDim_apply _ _ _ (ix3 p r (0 : Fin 1)) (ix2 p r) (fun a => match a with
    | ⟨0, _⟩ => by show p.val = (if (4 : Nat) = 1 then 0 else p.val); rw [if_neg (by decide)]
    | ⟨1, _⟩ => by show r.val = (if (8192 : Nat) = 1 then 0 else r.val); rw [if_neg (by decide)])).trans ?_
  rw [select_apply]
  have hneg : IntOp.cmpi .slt (posGrid (F := Ideal) (ix2 p r)) (0#32) = 0#1 := by
    refine eq_zero_of_ne_one fun h => ?_
    rw [IntOp.cmpi_slt, posGrid_at, toInt_pos] at h
    have : (0#32 : BitVec 32).toInt = 0 := by decide
    omega
  show Scalar.select (IntOp.cmpi .slt (posGrid (F := Ideal) (ix2 p r)) (0#32)) _ (posGrid (F := Ideal) (ix2 p r)) = _
  rw [hneg, select_zero, posGrid_at]

/-- An all-reduction by `and` over an axis of extent one, from the initial value one, is the one bit reduced. -/
theorem fold_andi_one (f : Fin 1 → BitVec 1) :
    (Finset.univ : Finset (Fin 1)).fold IntOp.andi (1#1) f = IntOp.andi (f 0) (1#1) := by
  rw [show (Finset.univ : Finset (Fin 1)) = {0} from rfl, Finset.fold_singleton]

/-- The in-table test before its all-reduction: `0 ≤ index ∧ index ≤ 8191` holds of every start index. -/
theorem inRangeBit_at (p : Fin 4) (r : Fin 8192) :
    andi (cmpi .sge (startIdx (F := Ideal)) (broadcastInDim S4x8192x1 ![] bcast_S_S4x8192x1 (constantI S_ 32 0#32)))
      (cmpi .sle (startIdx (F := Ideal)) (broadcastInDim S4x8192x1 ![0, 1, 2] bcast_S1x1x1_S4x8192x1_0_1_2
        (broadcastInDim S1x1x1 ![2] bcast_S1_S1x1x1_2 (constantI S1 32 8191#32)))) (ix3 p r (0 : Fin 1)) = 1#1 := by
  have hr : r.val < 8192 := r.isLt
  have h0 : (0#32 : BitVec 32).toInt = 0 := by decide
  have h1 : (8191#32 : BitVec 32).toInt = 8191 := by decide
  have hge : IntOp.cmpi .sge (startIdx (F := Ideal) (ix3 p r (0 : Fin 1))) (0#32) = 1#1 := by
    rw [IntOp.cmpi_sge, startIdx_at, toInt_pos, h0]; omega
  have hle : IntOp.cmpi .sle (startIdx (F := Ideal) (ix3 p r (0 : Fin 1))) (8191#32) = 1#1 := by
    rw [IntOp.cmpi_sle, startIdx_at, toInt_pos, h1]; omega
  show IntOp.andi (IntOp.cmpi .sge (startIdx (F := Ideal) (ix3 p r (0 : Fin 1))) (0#32))
      (IntOp.cmpi .sle (startIdx (F := Ideal) (ix3 p r (0 : Fin 1))) (8191#32)) = 1#1
  rw [hge, hle]; decide

/-- Every start index lies inside the table. -/
theorem inTable_at (p : Fin 4) (r : Fin 8192) : inTable (F := Ideal) (ix2 p r) = 1#1 := by
  have hred : S4x8192x1.Reduces [2] S4x8192 := by decide
  have hl : hred.lift (ix2 p r) (0 : Fin 1) = ix3 p r (0 : Fin 1) :=
    funext fun a => match a with | ⟨0, _⟩ => rfl | ⟨1, _⟩ => rfl | ⟨2, _⟩ => rfl
  unfold inTable
  rw [Host.reduce_eq_fold_single IntOp.andi _ _ reducesTo_S4x8192x1_S4x8192_d2 hred h_S_ (ix2 p r)]
  refine (fold_andi_one _).trans ?_
  show IntOp.andi (andi (cmpi .sge (startIdx (F := Ideal)) _) (cmpi .sle (startIdx (F := Ideal)) _)
      (hred.lift (ix2 p r) (0 : Fin 1))) (1#1) = 1#1
  rw [hl, inRangeBit_at]; decide

/-- The gather at `(p, r, k)` reads the table at `(q, k)`, where `q` is the start index read signed and clamped into the
    table: on the row axis (collapsed, named by the start index map) the clamped start, on the lane axis (the one offset
    axis) the result's lane. -/
theorem gather_at (t : (⟨S8192x1024, .f32⟩ : BufTy).Contents (Elt Ideal)) (idx : IVec S4x8192x1 32)
    (p : Fin 4) (r : Fin 8192) (k : Fin 1024) (q : Fin 8192)
    (hq : min (idx (ix3 p r (0 : Fin 1))).toInt.toNat 8191 = q.val) :
    Host.gather gather_S8192x1024_S4x8192x1_S4x8192x1024_2_0_n_n_0_2_11024 t idx (ix3 p r k) = t (ix2 q k) := by
  unfold Host.gather
  refine congrArg t (funext fun a => Fin.ext ?_)
  show gather_S8192x1024_S4x8192x1_S4x8192x1024_2_0_n_n_0_2_11024.start (ix3 p r k) idx a + gather_S8192x1024_S4x8192x1_S4x8192x1024_2_0_n_n_0_2_11024.batchCoord (ix3 p r k) a + gather_S8192x1024_S4x8192x1_S4x8192x1024_2_0_n_n_0_2_11024.offCoord (ix3 p r k) a = _
  rw [GatherDims.batchCoord_eq_zero _ _ _ List.not_mem_nil, Nat.add_zero]
  match a with
  | ⟨0, _⟩ =>
    show gather_S8192x1024_S4x8192x1_S4x8192x1024_2_0_n_n_0_2_11024.start (ix3 p r k) idx (0 : Fin 2) + gather_S8192x1024_S4x8192x1_S4x8192x1024_2_0_n_n_0_2_11024.offCoord (ix3 p r k) (0 : Fin 2) = q.val
    rw [GatherDims.offCoord_eq_zero _ _ _ (fun h => ((GatherDims.mem_sKept _ _).mp h).1 (List.mem_singleton.mpr rfl)), Nat.add_zero]
    unfold GatherDims.start
    rw [dif_pos (show (0 : Fin 2) ∈ gather_S8192x1024_S4x8192x1_S4x8192x1024_2_0_n_n_0_2_11024.startIndexMap from List.mem_singleton.mpr rfl)]
    have hsi : gather_S8192x1024_S4x8192x1_S4x8192x1024_2_0_n_n_0_2_11024.siIdx (ix3 p r k)
        ⟨List.idxOf (0 : Fin 2) gather_S8192x1024_S4x8192x1_S4x8192x1024_2_0_n_n_0_2_11024.startIndexMap, List.idxOf_lt_length_iff.2 (List.mem_singleton.mpr rfl)⟩ = ix3 p r (0 : Fin 1) := by
      funext b; refine Fin.ext ?_
      match b with
      | ⟨0, _⟩ => rfl
      | ⟨1, _⟩ => rfl
      | ⟨2, _⟩ => rfl
    rw [hsi]
    exact hq
  | ⟨1, _⟩ =>
    show gather_S8192x1024_S4x8192x1_S4x8192x1024_2_0_n_n_0_2_11024.start (ix3 p r k) idx (1 : Fin 2) + gather_S8192x1024_S4x8192x1_S4x8192x1024_2_0_n_n_0_2_11024.offCoord (ix3 p r k) (1 : Fin 2) = k.val
    have hs : gather_S8192x1024_S4x8192x1_S4x8192x1024_2_0_n_n_0_2_11024.start (ix3 p r k) idx (1 : Fin 2) = 0 := by
      unfold GatherDims.start
      rw [dif_neg (by decide)]
    rw [hs, Nat.zero_add]
    unfold GatherDims.offCoord
    rw [dif_pos (by decide)]
    rfl

/-- The gathered table rows at `(p, r, k)` are the table at `(r, k)`. -/
theorem tableRows_at (t : (⟨S8192x1024, .f32⟩ : BufTy).Contents (Elt Ideal)) (p : Fin 4) (r : Fin 8192) (k : Fin 1024) :
    tableRows (F := Ideal) t (ix3 p r k) = t (ix2 r k) := by
  have hr : r.val < 8192 := r.isLt
  have hm : broadcastInDim S4x8192x1024 ![0, 1] bcast_S4x8192_S4x8192x1024_0_1 (inTable (F := Ideal)) (ix3 p r k) = 1#1 := by
    refine (broadcastInDim_apply _ _ _ (ix3 p r k) (ix2 p r) (fun a => match a with
      | ⟨0, _⟩ => by show p.val = (if (4 : Nat) = 1 then 0 else p.val); rw [if_neg (by decide)]
      | ⟨1, _⟩ => by show r.val = (if (8192 : Nat) = 1 then 0 else r.val); rw [if_neg (by decide)])).trans ?_
    exact inTable_at p r
  unfold tableRows
  rw [select_apply, hm, select_one]
  exact gather_at t _ p r k r (by rw [startIdx_at, toInt_pos, Int.toNat_natCast]; omega)

end Cert.ReferenceIdeal.RefIndex

end
-- ==== Proof.RefValue.lean ====
/-
  The reference's result, read at an index: at batch row `p`, position `r`, lane `k` it is the layer normalisation over
  the lanes of the row `x[p, r, ·] + table[r, ·]`, the scaling spelt as a division by the square root; hence, when that
  row's entries are real numbers, the specification's value.

  The readings: a per-row column `[4, 8192, 1]` replicated over the lanes reads the column's entry `(p, r)`; a `[4, 8192]`
  array given a trailing unit axis reads its entry `(p, r)` at `(p, r, 0)`; a lane vector `[1024]` replicated over batch
  rows and positions reads its lane `k`; the host's sum over the lanes from the initial value zero is the sum over `k` of
  the operand at `(p, r, k)`. With the gathered table rows read as `table[r, k]`, the summed array's row is the
  specification's row, the lane mean is that row's mean, the centred array its centred row, and the column under the root
  its variance plus the stabiliser.
-/
import proofs.«154409_g42271068127815_cont_8to1_b_858_16_alg».proof.Proof.RefIndex
import proofs.«154409_g42271068127815_cont_8to1_b_858_16_alg».proof.Proof.Spec
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.RefRun Cert.ReferenceIdeal.RefIndex
open Idealize.ShloMosaic Idealize.ShloMosaic.ValueIdx Cert.LNorm
open scoped BigOperators

/-! ## The layout readings -/

/-- A per-row column replicated over the lanes reads the column's entry `(p, r)` at `(p, r, k)`. -/
theorem colBcast_at (v : (⟨S4x8192x1, .f32⟩ : BufTy).Contents (Elt Ideal)) (p : Fin 4) (r : Fin 8192) (k : Fin 1024) :
    broadcastInDim S4x8192x1024 ![0, 1, 2] bcast_S4x8192x1_S4x8192x1024_0_1_2 v (ix3 p r k) = v (ix3 p r (0 : Fin 1)) :=
  broadcastInDim_apply _ _ _ (ix3 p r k) (ix3 p r (0 : Fin 1)) (fun a => match a with
    | ⟨0, _⟩ => by show p.val = (if (4 : Nat) = 1 then 0 else p.val); rw [if_neg (by decide)]
    | ⟨1, _⟩ => by show r.val = (if (8192 : Nat) = 1 then 0 else r.val); rw [if_neg (by decide)]
    | ⟨2, _⟩ => by show 0 = (if (1 : Nat) = 1 then 0 else k.val); rw [if_pos rfl])

/-- A `[4, 8192]` array given a trailing unit axis reads its entry `(p, r)` at `(p, r, 0)`. -/
theorem colOf_at (u : (⟨S4x8192, .f32⟩ : BufTy).Contents (Elt Ideal)) (p : Fin 4) (r : Fin 8192) :
    broadcastInDim S4x8192x1 ![0, 1] bcast_S4x8192_S4x8192x1_0_1 u (ix3 p r (0 : Fin 1)) = u (ix2 p r) :=
  broadcastInDim_apply _ _ _ (ix3 p r (0 : Fin 1)) (ix2 p r) (fun a => match a with
    | ⟨0, _⟩ => by show p.val = (if (4 : Nat) = 1 then 0 else p.val); rw [if_neg (by decide)]
    | ⟨1, _⟩ => by show r.val = (if (8192 : Nat) = 1 then 0 else r.val); rw [if_neg (by decide)])

/-- A lane vector replicated over batch rows and positions reads its lane `k` at `(p, r, k)`. -/
theorem lanesBcast_at (g : (⟨S1024, .f32⟩ : BufTy).Contents (Elt Ideal)) (p : Fin 4) (r : Fin 8192) (k : Fin 1024) :
    broadcastInDim S4x8192x1024 ![0, 1, 2] bcast_S1x1x1024_S4x8192x1024_0_1_2
      (broadcastInDim S1x1x1024 ![2] bcast_S1024_S1x1x1024_2 g) (ix3 p r k) = g (ix1 k) := by
  refine (broadcastInDim_apply _ _ _ (ix3 p r k) (ix3 (0 : Fin 1) (0 : Fin 1) k) (fun a => match a with
    | ⟨0, _⟩ => by show 0 = (if (1 : Nat) = 1 then 0 else p.val); rw [if_pos rfl]
    | ⟨1, _⟩ => by show 0 = (if (1 : Nat) = 1 then 0 else r.val); rw [if_pos rfl]
    | ⟨2, _⟩ => by show k.val = (if (1024 : Nat) = 1 then 0 else k.val); rw [if_neg (by decide)])).trans ?_
  exact broadcastInDim_apply _ _ _ (ix3 (0 : Fin 1) (0 : Fin 1) k) (ix1 k) (fun a => match a with
    | ⟨0, _⟩ => by show k.val = (if (1024 : Nat) = 1 then 0 else k.val); rw [if_neg (by decide)])

/-- The host's sum over the lanes from zero, at `(p, r)`, is the sum over the lanes of the operand at `(p, r, k)`. -/
theorem hostSum_at (y : (⟨S4x8192x1024, .f32⟩ : BufTy).Contents (Elt Ideal)) (p : Fin 4) (r : Fin 8192) :
    Host.reduceAdd y (constant (F := Ideal) S_ .f32 0x00000000#32) reducesTo_S4x8192x1024_S4x8192_d2 h_S_ (ix2 p r)
      = ∑ k : Fin 1024, y (ix3 p r k) := by
  rw [hostReduceAdd_apply]
  refine (Ideal.hostReduceAdd_single reducesTo_S4x8192x1024_S4x8192_d2 (by decide) y _ (ix2 p r)).trans ?_
  rw [constant_apply, Ideal.ofBits_zero_f32, zero_add]
  exact Finset.sum_congr rfl fun k _ => congrArg y (funext fun a => match a with | ⟨0, _⟩ => rfl | ⟨1, _⟩ => rfl | ⟨2, _⟩ => rfl)

/-- The lane mean's column at `(p, r, 0)`: the sum over the lanes divided by the lane count. -/
theorem laneMean_at (y : (⟨S4x8192x1024, .f32⟩ : BufTy).Contents (Elt Ideal)) (p : Fin 4) (r : Fin 8192) :
    laneMean (F := Ideal) y (ix3 p r (0 : Fin 1)) = Ideal.div (∑ k : Fin 1024, y (ix3 p r k)) lanesW := by
  unfold laneMean
  rw [hostDivf_apply, colOf_at, hostSum_at, broadcastInDim_scalar_apply, constant_apply]

/-! ## The reference's pieces at an index -/

theorem summed_at (x : (⟨S4x8192x1024, .f32⟩ : BufTy).Contents (Elt Ideal)) (t : (⟨S8192x1024, .f32⟩ : BufTy).Contents (Elt Ideal))
    (p : Fin 4) (r : Fin 8192) (k : Fin 1024) : summed (F := Ideal) x t (ix3 p r k) = rowOf x t p r k := by
  unfold summed
  show x (ix3 p r k) + tableRows (F := Ideal) t (ix3 p r k) = x (ix3 p r k) + t (ix2 r k)
  rw [tableRows_at]

theorem mean_summed_at (x : (⟨S4x8192x1024, .f32⟩ : BufTy).Contents (Elt Ideal)) (t : (⟨S8192x1024, .f32⟩ : BufTy).Contents (Elt Ideal))
    (p : Fin 4) (r : Fin 8192) : laneMean (F := Ideal) (summed x t) (ix3 p r (0 : Fin 1)) = mean (rowOf x t p r) := by
  rw [laneMean_at]
  exact congrArg (Ideal.div · lanesW) (Finset.sum_congr rfl fun k _ => summed_at x t p r k)

theorem centred_at (x : (⟨S4x8192x1024, .f32⟩ : BufTy).Contents (Elt Ideal)) (t : (⟨S8192x1024, .f32⟩ : BufTy).Contents (Elt Ideal))
    (p : Fin 4) (r : Fin 8192) (k : Fin 1024) : centred (F := Ideal) x t (ix3 p r k) = cen (rowOf x t p r) k := by
  unfold centred
  show summed (F := Ideal) x t (ix3 p r k)
      - broadcastInDim S4x8192x1024 ![0, 1, 2] bcast_S4x8192x1_S4x8192x1024_0_1_2 (laneMean (summed x t)) (ix3 p r k) = _
  rw [summed_at, colBcast_at, mean_summed_at]
  rfl

theorem rootCol_at (x : (⟨S4x8192x1024, .f32⟩ : BufTy).Contents (Elt Ideal)) (t : (⟨S8192x1024, .f32⟩ : BufTy).Contents (Elt Ideal))
    (p : Fin 4) (r : Fin 8192) :
    rootCol (F := Ideal) x t (ix3 p r (0 : Fin 1)) = Ideal.sqrt (var (rowOf x t p r) + epsW) := by
  unfold rootCol
  show Ideal.sqrt (laneMean (F := Ideal) (mulf (centred x t) (centred x t)) (ix3 p r (0 : Fin 1))
      + broadcastInDim S4x8192x1 ![] bcast_S_S4x8192x1 (constant (F := Ideal) S_ .f32 0x3727C5AC#32) (ix3 p r (0 : Fin 1))) = _
  rw [laneMean_at, broadcastInDim_scalar_apply, constant_apply]
  refine congrArg (fun s => Ideal.sqrt (Ideal.div s lanesW + epsW)) (Finset.sum_congr rfl fun k _ => ?_)
  show centred (F := Ideal) x t (ix3 p r k) * centred (F := Ideal) x t (ix3 p r k) = _
  rw [centred_at]

/-- The reference's result at `(p, r, k)`: the row's normalisation, scaled by a division. -/
theorem out_at (x : (⟨S4x8192x1024, .f32⟩ : BufTy).Contents (Elt Ideal)) (t : (⟨S8192x1024, .f32⟩ : BufTy).Contents (Elt Ideal))
    (g b : (⟨S1024, .f32⟩ : BufTy).Contents (Elt Ideal)) (p : Fin 4) (r : Fin 8192) (k : Fin 1024) :
    out (F := Ideal) x t g b (ix3 p r k) = rowDiv (rowOf x t p r) (g (ix1 k)) (b (ix1 k)) k := by
  unfold out
  show Ideal.div (centred (F := Ideal) x t (ix3 p r k))
        (broadcastInDim S4x8192x1024 ![0, 1, 2] bcast_S4x8192x1_S4x8192x1024_0_1_2 (rootCol x t) (ix3 p r k))
      * broadcastInDim S4x8192x1024 ![0, 1, 2] bcast_S1x1x1024_S4x8192x1024_0_1_2
          (broadcastInDim S1x1x1024 ![2] bcast_S1024_S1x1x1024_2 g) (ix3 p r k)
      + broadcastInDim S4x8192x1024 ![0, 1, 2] bcast_S1x1x1024_S4x8192x1024_0_1_2
          (broadcastInDim S1x1x1024 ![2] bcast_S1024_S1x1x1024_2 b) (ix3 p r k) = _
  rw [centred_at, colBcast_at, rootCol_at, lanesBcast_at, lanesBcast_at]
  rfl

/-- Where the activations and the table hold real numbers, the reference's result is the specification. -/
theorem out_eq_G (x : (⟨S4x8192x1024, .f32⟩ : BufTy).Contents (Elt Ideal)) (t : (⟨S8192x1024, .f32⟩ : BufTy).Contents (Elt Ideal))
    (g b : (⟨S1024, .f32⟩ : BufTy).Contents (Elt Ideal))
    (hx : ∀ i, ∃ a : ℝ, x i = (a : EReal)) (ht : ∀ i, ∃ a : ℝ, t i = (a : EReal)) :
    out (F := Ideal) x t g b = G x t g b := by
  funext i
  obtain ⟨p, r, k, rfl⟩ : ∃ (p : Fin 4) (r : Fin 8192) (k : Fin 1024), i = ix3 p r k := ⟨i 0, i 1, i 2, eq_ix3 i⟩
  rw [out_at, G_ix3]
  refine rowDiv_eq_rowMul _ (fun k' => ?_) _ _ k
  obtain ⟨a, ha⟩ := hx (ix3 p r k')
  obtain ⟨c, hc⟩ := ht (ix2 r k')
  exact ⟨a + c, by show x (ix3 p r k') + t (ix2 r k') = _; rw [ha, hc, EReal.coe_add]⟩

end Cert.ReferenceIdeal.RefValue

end
-- ==== Proof.Finite.lean ====
/-
  What the precondition says of the two arrays the normalised rows are built from: every entry of the activations and of
  the positional table is a real number.

  The precondition is the conjunction, over the four argument arrays, of "every entry's absolute value is below +∞",
  each taken as an all-reduction of a one-bit comparison. An all-reduction that is one says every compared bit is one;
  an extended real whose absolute value is below +∞ is neither infinity, hence a real.
-/
import proofs.«154409_g42271068127815_cont_8to1_b_858_16_alg».proof.Pre_finite_inputs
import Idealize.ShloMosaic.PureOps.Ideal.Laws
import Idealize.ShloMosaic.Lib.ReduceAll
import Idealize.ShloMosaic.Lib.ValueIdx

noncomputable section

namespace Cert.LNorm

open Idealize.ShloMosaic

/-- The word 0x7F800000 denotes +∞. -/
private theorem ofBits_inf : Ideal.ofBits .f32 0x7F800000#32 = (⊤ : EReal) := by
  simp [Ideal.ofBits, Ideal.ieee]

/-- An extended real whose absolute value is strictly below +∞ is a real number: −∞ and +∞ both have absolute
    value +∞. -/
private theorem real_of_abs_lt_top (a : EReal) (h : Ideal.cmp .olt (max a (-a)) (⊤ : EReal) = 1#1) : ∃ r : ℝ, a = (r : EReal) := by
  induction a using EReal.rec with
  | bot => simp [Ideal.cmp] at h
  | coe r => exact ⟨r, rfl⟩
  | top => simp [Ideal.cmp] at h

/-- Under the precondition every entry of the first two argument arrays is a real number. -/
theorem real_of_pre [Cert.Pre_finite_inputs.Facts]
    (x : FVec Ideal Cert.Pre_finite_inputs.S4x8192x1024 .f32) (t : FVec Ideal Cert.Pre_finite_inputs.S8192x1024 .f32)
    (g b : FVec Ideal Cert.Pre_finite_inputs.S1024 .f32)
    (hpre : Cert.Pre_finite_inputs.fn (F := Ideal) x t g b = fun _ => 1#1) :
    (∀ i, ∃ r : ℝ, x i = (r : EReal)) ∧ (∀ i, ∃ r : ℝ, t i = (r : EReal)) := by
  -- the rank-0 result has one index
  haveI : Subsingleton Cert.Pre_finite_inputs.S_.Idx := ⟨fun a b => funext fun d => d.elim0⟩
  have h0 := congrFun hpre ValueIdx.ix0
  dsimp only [Cert.Pre_finite_inputs.fn, Cert.Pre_finite_inputs.fn_part1] at h0
  -- the joined bit is one: so is each of the four all-reductions
  dsimp only [andi] at h0
  obtain ⟨⟨⟨hx, ht⟩, -⟩, -⟩ :
      ((_ = 1#1 ∧ _ = 1#1) ∧ _ = 1#1) ∧ _ = 1#1 := by
    simpa only [IntOp.andi_eq_one] using h0
  constructor
  · intro i
    -- an all-reduction that is one has a one at every index
    have hi := Host.reduce_andi_all _ _ _ _ _ hx i
    -- at one index: the comparison of |x i| with the broadcast +∞
    change Ideal.cmp .olt (max (x i) (-(x i))) (Ideal.ofBits .f32 0x7F800000#32) = 1#1 at hi
    rw [ofBits_inf] at hi
    exact real_of_abs_lt_top _ hi
  · intro i
    have hi := Host.reduce_andi_all _ _ _ _ _ ht i
    change Ideal.cmp .olt (max (t i) (-(t i))) (Ideal.ofBits .f32 0x7F800000#32) = 1#1 at hi
    rw [ofBits_inf] at hi
    exact real_of_abs_lt_top _ hi

end Cert.LNorm

end
-- ==== Proof.lean ====
/-
  A fused "add the positional table, then layer-normalise, then scale and shift" kernel against its array-language
  reference, as functions on the extended reals.

  For activations `x : [4, 8192, 1024]`, a positional table `[8192, 1024]`, a gain and an offset `[1024]`, both programs
  compute, at batch row `p`, position `r`, lane `k`: with `h = x[p, r, ·] + table[r, ·]`, `μ = (Σ h)/1024`, `c = h − μ` and
  `v = (Σ c²)/1024 + ε`, the value `c[k] · v^(-1/2) · gain[k] + offset[k]`.
  The kernel walks the positions in 16 blocks of 512 rows, all batch rows at once, and multiplies by the inverse square
  root; its result array is assembled from the blocks each grid point writes back. The reference gathers the table at the
  positions `0 … 8191` (an identity: every index is in range, so neither the wrap of negative indices nor the fill value
  for out-of-range ones is ever taken), and divides by the square root. The two scalings agree because, the activations
  and the table being finite by the precondition, `v` is a positive real: `c · (√v)⁻¹ = c / √v`. The sums over the lanes are
  the same sums, and the literals (1024, ε, 0) are the same words on both sides.
  The idealisation rewrote nothing in the kernel, so the relation between the kernel and its idealised form is trivial.
-/
import proofs.«154409_g42271068127815_cont_8to1_b_858_16_alg».proof.Defs
import proofs.«154409_g42271068127815_cont_8to1_b_858_16_alg».proof.Proof.Gen.Kernel
import proofs.«154409_g42271068127815_cont_8to1_b_858_16_alg».proof.Proof.Gen.Kernel.Skeleton
import proofs.«154409_g42271068127815_cont_8to1_b_858_16_alg».proof.Proof.Gen.Kernel.Launch
import proofs.«154409_g42271068127815_cont_8to1_b_858_16_alg».proof.Proof.Gen.Kernel.Points
import proofs.«154409_g42271068127815_cont_8to1_b_858_16_alg».proof.Proof.Gen.Kernel.Frame
import proofs.«154409_g42271068127815_cont_8to1_b_858_16_alg».proof.Proof.Gen.KernelIdeal
import proofs.«154409_g42271068127815_cont_8to1_b_858_16_alg».proof.Proof.Gen.KernelIdeal.Skeleton
import proofs.«154409_g42271068127815_cont_8to1_b_858_16_alg».proof.Proof.Gen.KernelIdeal.Launch
import proofs.«154409_g42271068127815_cont_8to1_b_858_16_alg».proof.Proof.Gen.KernelIdeal.Points
import proofs.«154409_g42271068127815_cont_8to1_b_858_16_alg».proof.Proof.Gen.KernelIdeal.Frame
import proofs.«154409_g42271068127815_cont_8to1_b_858_16_alg».proof.Proof.Gen.KernelIdeal.Value
import proofs.«154409_g42271068127815_cont_8to1_b_858_16_alg».proof.Proof.Gen.ReferenceIdeal
import proofs.«154409_g42271068127815_cont_8to1_b_858_16_alg».proof.Proof.Gen.Pre_finite_inputs
import proofs.«154409_g42271068127815_cont_8to1_b_858_16_alg».proof.Proof.KernelValue
import proofs.«154409_g42271068127815_cont_8to1_b_858_16_alg».proof.Proof.RefValue
import proofs.«154409_g42271068127815_cont_8to1_b_858_16_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of array operations: its run, with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Nothing was rewritten between the kernel and its reading on the extended reals. -/
theorem preserves : Cert.preserves_Kernel_KernelIdeal := trivial

/-- From memories that agree on the four arguments, with the arguments finite, the kernel's result array and the
    reference's are the same array: the normalised rows `G` of the arguments. The kernel's array is `G` by its blocks;
    the reference's composed term is `G` index by index, where the rows' finiteness turns its division by the square
    root into the kernel's product with the inverse square root. -/
theorem algebraic : Cert.algebraic_KernelIdeal_ReferenceIdeal := by
  intro m ρ m' ρ' hpre hagree
  refine ⟨fun c => Cert.LNorm.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  obtain ⟨hx, ht⟩ := Cert.LNorm.real_of_pre _ _ _ _ (hpre c)
  exact Cert.ReferenceIdeal.RefValue.out_eq_G _ _ _ _ hx ht

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
